-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S1 .f32) (main_arg1 : FVec F S100000x128 .f32) (main_arg2 : IVec S2x1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S1 : Shape := ⟨1, ![1]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 83
  | .vmem => 33
  | .smem => 0
  | _ => 0

abbrev bufTy : (tb : Table) → Fin (tcTables nBuf tb) → BufTy
  | .hbm, ⟨0, _⟩ => ⟨S1, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x128, .bf16⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .bf16⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .bf16⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .bf16⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .bf16⟩
  | .local _ .vmem, ⟨25, _⟩ => ⟨S5000x128, .bf16⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1 : Shape := ⟨1, ![1]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S1, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its result named. The program is three kernel regions among stretches of host
  operations; the buffer contents at each boundary are a fold from the launch memory (`W0` … `W8` of the generated
  frame module), and at the return every unscoped buffer holds what the last boundary's contents `W8` say. Reading the
  result buffer there, beside the twelve argument buffers, gives the run below: every weakly fair execution terminates,
  without a fault, with the result array at `W8`'s value and the arguments as launched.
-/
import proofs.«166229_j14594298872163_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.ValueRun

end
-- ==== Proof.Sage.lean ====
/-
  One mean-aggregating graph layer and the three-layer network, as functions of arrays index by index.

  A node feature array has shape [100000, 128]; a layer takes the neighbour sums `agg`, the node's own
  features `x`, the inverse degrees `d` (one per node), two 128 × 128 weight matrices and a bias row, and
  returns at node `r`, feature `q`

      act ( Σ_k (agg[r,k] · d[r]) · Wl[k,q]  +  Σ_k x[r,k] · Wr[k,q]  +  b[q] ).

  The network applies it three times, the first two with `act = max · 0`, the last with the identity; each
  layer's neighbour sums are an aggregation `A` of the previous layer's output. `A` and `d` are parameters:
  the two programs compute them by the same host operations, which are never opened.
-/
import Idealize.ShloMosaic.PureOps.Ideal
import Idealize.ShloMosaic.Lib.ValueIdx

noncomputable section

namespace Cert.Sage

open Idealize.ShloMosaic Idealize.ShloMosaic.ValueIdx

/-- node features -/
abbrev SN : Shape := ⟨2, ![100000, 128]⟩
/-- a weight matrix -/
abbrev SW : Shape := ⟨2, ![128, 128]⟩
/-- one value per node -/
abbrev SD : Shape := ⟨1, ![100000]⟩
/-- a bias row -/
abbrev SB : Shape := ⟨1, ![128]⟩

/-- The rectifier on the extended reals. -/
def relu (v : EReal) : EReal := max v 0

/-- One layer at node `r` and feature `q`. -/
def layerAt (act : EReal → EReal) (agg x : SN.Idx → EReal) (d : SD.Idx → EReal) (Wl Wr : SW.Idx → EReal)
    (b : SB.Idx → EReal) (r : Fin 100000) (q : Fin 128) : EReal :=
  act ((∑ k : Fin 128, (agg (ix2 r k) * d (ix1 r)) * Wl (ix2 k q)) + (∑ k : Fin 128, x (ix2 r k) * Wr (ix2 k q))
    + b (ix1 q))

/-- One layer as an array. -/
def layer (act : EReal → EReal) (agg x : SN.Idx → EReal) (d : SD.Idx → EReal) (Wl Wr : SW.Idx → EReal)
    (b : SB.Idx → EReal) : SN.Idx → EReal :=
  fun j => layerAt act agg x d Wl Wr b (j 0) (j 1)

theorem layer_ix2 (act : EReal → EReal) (agg x : SN.Idx → EReal) (d : SD.Idx → EReal) (Wl Wr : SW.Idx → EReal)
    (b : SB.Idx → EReal) (r : Fin 100000) (q : Fin 128) :
    layer act agg x d Wl Wr b (ix2 r q) = layerAt act agg x d Wl Wr b r q := rfl

/-- Two arrays that agree at every `ix2 r q` are equal. -/
theorem ext_ix2 {f g : SN.Idx → EReal} (h : ∀ (r : Fin 100000) (q : Fin 128), f (ix2 r q) = g (ix2 r q)) : f = g :=
  funext fun j => by rw [eq_ix2 j]; exact h _ _

/-- The three layers: rectified, rectified, plain; each aggregates the previous layer's output. -/
def net (A : (SN.Idx → EReal) → (SN.Idx → EReal)) (d : SD.Idx → EReal) (x : SN.Idx → EReal)
    (W1l W1r : SW.Idx → EReal) (b1 : SB.Idx → EReal) (W2l W2r : SW.Idx → EReal) (b2 : SB.Idx → EReal)
    (W3l W3r : SW.Idx → EReal) (b3 : SB.Idx → EReal) : SN.Idx → EReal :=
  layer id (A (layer relu (A (layer relu (A x) x d W1l W1r b1)) (layer relu (A x) x d W1l W1r b1) d W2l W2r b2))
    (layer relu (A (layer relu (A x) x d W1l W1r b1)) (layer relu (A x) x d W1l W1r b1) d W2l W2r b2) d W3l W3r b3

end Cert.Sage

end
-- ==== Proof.Pay.lean ====
/-
  The arithmetic of one layer's block computation, read at one index.

  Each of the three block computations takes 5000 node rows: the neighbour sums `v0`, the inverse degrees `v2`
  (one per row), the rows' own features `v7`, two 128 × 128 weight matrices `v9`, `v11` and a bias row `v16`.
  On the extended reals every format change is the identity, a product of matrices into a zero accumulator is
  the plain sum over the contracted coordinate, and the two broadcasts read the degree of the row and the bias of
  the column. So at row `p` and feature `q` the block computes

      Σ_k (v0[p,k] · v2[p,0]) · v9[k,q]  +  Σ_k v7[p,k] · v11[k,q]  +  v16[0,q],

  rectified (`max · 0`) in the first two layers and plain in the third.
-/
import proofs.«166229_j14594298872163_2_alg».proof.Proof.Gen.KernelIdeal.Skeleton
import proofs.«166229_j14594298872163_2_alg».proof.Proof.Sage
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Pay
open Cert.KernelIdeal Cert.KernelIdeal.Gen Idealize.ShloMosaic Idealize.ShloMosaic.ValueIdx

/-- The dimension numbers of the block's two matrix products: rows × contraction times contraction × columns. -/
private abbrev D : DotDims S5000x128 S128x128 S5000x128 := dot_S5000x128_S128x128_S5000x128_1_0_0_1_n_n

/-- The left operand is read at the output's row … -/
private theorem lhs_row (i : S5000x128.Idx) (c : D.contr.Idx) : (D.lhsIdx i c 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl
/-- … and the contracted coordinate, -/
private theorem lhs_col (i : S5000x128.Idx) (c : D.contr.Idx) : (D.lhsIdx i c 1).val = (c ⟨0, by decide⟩).val :=
  D.lhsIdx_val_of_single rfl i c
/-- the right operand at the contracted coordinate … -/
private theorem rhs_row (i : S5000x128.Idx) (c : D.contr.Idx) : (D.rhsIdx i c 0).val = (c ⟨0, by decide⟩).val :=
  D.rhsIdx_val_of_single rfl i c
/-- … and the output's column. -/
private theorem rhs_col (i : S5000x128.Idx) (c : D.contr.Idx) : (D.rhsIdx i c 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- A matrix product into the zero accumulator, read at row `p` and column `q`: the sum over the contracted
    coordinate of the products of the left operand's row and the right operand's column. -/
private theorem matmul_zero_at {φ₁ φ₂ : FTy} (a : FVec Ideal S5000x128 φ₁) (w : FVec Ideal S128x128 φ₂) (p : Fin 5000)
    (q : Fin 128) :
    matmul D none a w (constant S5000x128 .f32 0x00000000#32) (ix2 p q) = ∑ k : Fin 128, a (ix2 p k) * w (ix2 k q) := by
  refine (Ideal.matmul_constant_zero_apply D none a w (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er]

/-- One value per row, broadcast along the row, reads the row's value. -/
private theorem bcast_col_at (v : FVec Ideal S5000x1 .f32) (h : S5000x1.Broadcasts S5000x128) (p : Fin 5000) (k : Fin 128) :
    broadcastTo S5000x128 v h (ix2 p k) = v (ix2 p (0 : Fin 1)) :=
  broadcastTo_apply v h (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- One row, broadcast down the rows, reads the column's value. -/
private theorem bcast_row_at (v : FVec Ideal S1x128 .f32) (h : S1x128.Broadcasts S5000x128) (p : Fin 5000) (q : Fin 128) :
    broadcastTo S5000x128 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

theorem pay0_at (v0 : Vec Ideal S5000x128 .f32) (v2 : Vec Ideal S5000x1 .f32) (v7 : Vec Ideal S5000x128 .f32)
    (v9 v11 : Vec Ideal S128x128 .f32) (v16 : Vec Ideal S1x128 .f32) (p : Fin 5000) (q : Fin 128) :
    k0_pay1 (F := Ideal) v0 v2 v7 v9 v11 v16 (ix2 p q)
      = Cert.Sage.relu ((∑ k : Fin 128, (v0 (ix2 p k) * v2 (ix2 p (0 : Fin 1))) * v9 (ix2 k q))
          + (∑ k : Fin 128, v7 (ix2 p k) * v11 (ix2 k q)) + v16 (ix2 (0 : Fin 1) q)) := by
  unfold k0_pay1
  show max (matmul D none _ _ (constant S5000x128 .f32 0x00000000#32) (ix2 p q)
      + matmul D none _ _ (constant S5000x128 .f32 0x00000000#32) (ix2 p q)
      + broadcastTo S5000x128 _ _ (ix2 p q)) (Ideal.ofBits .f32 0x00000000#32) = max _ 0
  rw [matmul_zero_at, matmul_zero_at, bcast_row_at, Ideal.ofBits_zero_f32, shapeCast_self, shapeCast_self, shapeCast_self]
  refine congrArg (fun t => max t 0) ?_
  refine congrArg₂ (· + ·) (congrArg₂ (· + ·) (Finset.sum_congr rfl fun k _ => ?_) (Finset.sum_congr rfl fun k _ => ?_)) rfl
  · show (v0 (ix2 p k) * broadcastTo S5000x128 v2 _ (ix2 p k)) * v9 (ix2 k q) = _
    rw [bcast_col_at]
  · rfl

theorem pay1_at (v0 : Vec Ideal S5000x128 .f32) (v2 : Vec Ideal S5000x1 .f32) (v7 : Vec Ideal S5000x128 .bf16)
    (v9 v11 : Vec Ideal S128x128 .f32) (v16 : Vec Ideal S1x128 .f32) (p : Fin 5000) (q : Fin 128) :
    k1_pay1 (F := Ideal) v0 v2 v7 v9 v11 v16 (ix2 p q)
      = Cert.Sage.relu ((∑ k : Fin 128, (v0 (ix2 p k) * v2 (ix2 p (0 : Fin 1))) * v9 (ix2 k q))
          + (∑ k : Fin 128, v7 (ix2 p k) * v11 (ix2 k q)) + v16 (ix2 (0 : Fin 1) q)) := by
  unfold k1_pay1
  show max (matmul D none _ _ (constant S5000x128 .f32 0x00000000#32) (ix2 p q)
      + matmul D none _ _ (constant S5000x128 .f32 0x00000000#32) (ix2 p q)
      + broadcastTo S5000x128 _ _ (ix2 p q)) (Ideal.ofBits .f32 0x00000000#32) = max _ 0
  rw [matmul_zero_at, matmul_zero_at, bcast_row_at, Ideal.ofBits_zero_f32, shapeCast_self, shapeCast_self, shapeCast_self,
    shapeCast_self]
  refine congrArg (fun t => max t 0) ?_
  refine congrArg₂ (· + ·) (congrArg₂ (· + ·) (Finset.sum_congr rfl fun k _ => ?_) (Finset.sum_congr rfl fun k _ => ?_)) rfl
  · show (v0 (ix2 p k) * broadcastTo S5000x128 v2 _ (ix2 p k)) * v9 (ix2 k q) = _
    rw [bcast_col_at]
  · rfl

theorem pay2_at (v0 : Vec Ideal S5000x128 .f32) (v2 : Vec Ideal S5000x1 .f32) (v7 : Vec Ideal S5000x128 .bf16)
    (v9 v11 : Vec Ideal S128x128 .f32) (v16 : Vec Ideal S1x128 .f32) (p : Fin 5000) (q : Fin 128) :
    k2_pay1 (F := Ideal) v0 v2 v7 v9 v11 v16 (ix2 p q)
      = (∑ k : Fin 128, (v0 (ix2 p k) * v2 (ix2 p (0 : Fin 1))) * v9 (ix2 k q))
          + (∑ k : Fin 128, v7 (ix2 p k) * v11 (ix2 k q)) + v16 (ix2 (0 : Fin 1) q) := by
  unfold k2_pay1
  show matmul D none _ _ (constant S5000x128 .f32 0x00000000#32) (ix2 p q)
      + matmul D none _ _ (constant S5000x128 .f32 0x00000000#32) (ix2 p q)
      + broadcastTo S5000x128 _ _ (ix2 p q) = _
  rw [matmul_zero_at, matmul_zero_at, bcast_row_at, shapeCast_self, shapeCast_self, shapeCast_self, shapeCast_self]
  refine congrArg₂ (· + ·) (congrArg₂ (· + ·) (Finset.sum_congr rfl fun k _ => ?_) (Finset.sum_congr rfl fun k _ => ?_)) rfl
  · show (v0 (ix2 p k) * broadcastTo S5000x128 v2 _ (ix2 p k)) * v9 (ix2 k q) = _
    rw [bcast_col_at]
  · rfl

end Cert.KernelIdeal.Pay
end
-- ==== Proof.Region0.lean ====
/-
  Layer 1 as the kernel computes it. Region 0 of the kernel program runs its body at 20 grid points; point `t`
  reads rows 5000 t … 5000 t + 4999 of the neighbour sums, of the node features and of the inverse-degree column,
  the two weight matrices and the bias row whole, and writes the same rows of the output. The body's arithmetic at
  one index is the layer's formula over the block (`Pay.pay0_at`); a block's element `(p, k)` is the array's
  element `(5000 t + p, k)`; so what point `t` writes back is block `t` of the layer applied to the region's input
  arrays, the 20 blocks cover the array (row `r` lies in block `r / 5000`), and the output array after the region is
  that layer.
-/
import proofs.«166229_j14594298872163_2_alg».proof.Proof.Gen.KernelIdeal.Frame
import proofs.«166229_j14594298872163_2_alg».proof.Proof.Sage
import proofs.«166229_j14594298872163_2_alg».proof.Proof.Pay
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the 20 grid points: the row-blocked windows sit at block (t, 0), the resident ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer of the region's input arrays: neighbour sums, node features, the inverse-degree column read as one
    value per node, the two weight matrices, the bias row read as one value per feature. -/
abbrev G (c : Dev nD) : S100000x128.Idx → EReal :=
  Cert.Sage.layer Cert.Sage.relu (V c main_v25) (V c main_arg1) (fun i => V c main_v15 (ix2 (i 0) (0 : Fin 1)))
    (V c main_arg3) (V c main_arg4) (fun i => V c main_v26 (ix2 (0 : Fin 1) (i 0)))

/-- Element `(p, k)` of the neighbour sums' block at point `t` is the array's element `(5000 t + p, k)`. -/
theorem read0 (c : Dev nD) (t : Fin cfg0.N) (p : Fin 5000) (k : Fin 128) (r : Fin 100000) (hr : r.val = t.val * 5000 + p.val) :
    iblk0 V c 0 t (ix2 p k) = V c main_v25 (ix2 r k) := by
  show V c main_v25 (((cfg0.win 0).blk t).view.emb (ix2 p k)) = V c main_v25 (ix2 r k)
  obtain ⟨e0, e1, -⟩ := idx_facts t
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the node features' block. -/
theorem read1 (c : Dev nD) (t : Fin cfg0.N) (p : Fin 5000) (k : Fin 128) (r : Fin 100000) (hr : r.val = t.val * 5000 + p.val) :
    iblk0 V c 1 t (ix2 p k) = V c main_arg1 (ix2 r k) := by
  show V c main_arg1 (((cfg0.win 1).blk t).view.emb (ix2 p k)) = V c main_arg1 (ix2 r k)
  obtain ⟨-, -, e0, e1, -⟩ := idx_facts t
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Row `p` of the inverse-degree block at point `t` is row `5000 t + p` of the column. -/
theorem read2 (c : Dev nD) (t : Fin cfg0.N) (p : Fin 5000) (r : Fin 100000) (hr : r.val = t.val * 5000 + p.val) :
    iblk0 V c 2 t (ix2 p (0 : Fin 1)) = V c main_v15 (ix2 r (0 : Fin 1)) := by
  show V c main_v15 (((cfg0.win 2).blk t).view.emb (ix2 p (0 : Fin 1))) = V c main_v15 (ix2 r (0 : Fin 1))
  obtain ⟨-, -, -, -, e0, e1, -⟩ := idx_facts t
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- The first weight matrix is read whole at every point. -/
theorem read3 (c : Dev nD) (t : Fin cfg0.N) (k q : Fin 128) :
    iblk0 V c 3 t (ix2 k q) = V c main_arg3 (ix2 k q) := by
  show V c main_arg3 (((cfg0.win 3).blk t).view.emb (ix2 k q)) = V c main_arg3 (ix2 k q)
  obtain ⟨-, -, -, -, -, -, e0, e1, -⟩ := idx_facts t
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- So is the second. -/
theorem read4 (c : Dev nD) (t : Fin cfg0.N) (k q : Fin 128) :
    iblk0 V c 4 t (ix2 k q) = V c main_arg4 (ix2 k q) := by
  show V c main_arg4 (((cfg0.win 4).blk t).view.emb (ix2 k q)) = V c main_arg4 (ix2 k q)
  obtain ⟨-, -, -, -, -, -, -, -, e0, e1, -⟩ := idx_facts t
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- And the bias row. -/
theorem read5 (c : Dev nD) (t : Fin cfg0.N) (q : Fin 128) :
    iblk0 V c 5 t (ix2 (0 : Fin 1) q) = V c main_v26 (ix2 (0 : Fin 1) q) := by
  show V c main_v26 (((cfg0.win 5).blk t).view.emb (ix2 (0 : Fin 1) q)) = V c main_v26 (ix2 (0 : Fin 1) q)
  obtain ⟨-, -, -, -, -, -, -, -, -, -, e0, e1, -⟩ := idx_facts t
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- What point `t` writes back is block `t` of the layer's array. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 2 t) (iblk0 V c 1 t) (iblk0 V c 3 t) (iblk0 V c 4 t) (iblk0 V c 5 t) (ix2 p q) = G V c (((cfg0.win 6).blk t).view.emb (ix2 p q))
  refine (Cert.KernelIdeal.Pay.pay0_at (iblk0 V c 0 t) (iblk0 V c 2 t) (iblk0 V c 1 t) (iblk0 V c 3 t) (iblk0 V c 4 t) (iblk0 V c 5 t) p q).trans ?_
  have ht : t.val < 20 := lt_of_lt_of_eq t.isLt N_0
  have hp : p.val < 5000 := p.isLt
  obtain ⟨r, hr⟩ : ∃ r : Fin 100000, r.val = t.val * 5000 + p.val := ⟨⟨t.val * 5000 + p.val, by omega⟩, rfl⟩
  have hemb : ((cfg0.win 6).blk t).view.emb (ix2 p q) = ix2 r q := by
    obtain ⟨-, -, -, -, -, -, -, -, -, -, -, -, e0, e1⟩ := idx_facts t
    refine funext fun a => Fin.ext ?_
    match a with
    | ⟨0, _⟩ => show win0_6.index t (0 : Fin 2) * 5000 + 1 * p.val = r.val; omega
    | ⟨1, _⟩ => show win0_6.index t (1 : Fin 2) * 128 + 1 * q.val = q.val; omega
  refine Eq.trans ?_ (congrArg (G V c) hemb).symm
  show _ = Cert.Sage.layerAt Cert.Sage.relu (V c main_v25) (V c main_arg1) (fun i => V c main_v15 (ix2 (i 0) (0 : Fin 1)))
    (V c main_arg3) (V c main_arg4) (fun i => V c main_v26 (ix2 (0 : Fin 1) (i 0))) r q
  unfold Cert.Sage.layerAt
  refine congrArg Cert.Sage.relu (congrArg₂ (· + ·) (congrArg₂ (· + ·) (Finset.sum_congr rfl fun k _ => ?_) (Finset.sum_congr rfl fun k _ => ?_)) ?_)
  · rw [read0 V c t p k r hr, read2 V c t p r hr, read3 V c t k q]
  · rw [read1 V c t p k r hr, read4 V c t k q]
  · exact read5 V c t q

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27).slice (win0_6.rect t)).set ↔ _
  rw [View.set_slice_whole, Rect.mem_set_unit]
  exact Iff.rfl

/-- Every index lies in the block of the point its row's quotient by 5000 names. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The region's output array after the region: the layer of the region's input arrays. -/
theorem final (c : Dev nD) : (dat0 (F := Ideal) V c).arrAt 6 cfg0.N = G V c :=
  (dat0 (F := Ideal) V c).arrAt_eq_of_cover 6 (G V c) (fun t _ => flushed_eq V c t) cover

end Cert.KernelIdeal.Region0

end
-- ==== Proof.Region1.lean ====
/-
  Layer 2 as the kernel computes it. Region 1 of the kernel program runs its body at 20 grid points; point `t`
  reads rows 5000 t … 5000 t + 4999 of the neighbour sums, of the node features and of the inverse-degree column,
  the two weight matrices and the bias row whole, and writes the same rows of the output. The body's arithmetic at
  one index is the layer's formula over the block (`Pay.pay1_at`); a block's element `(p, k)` is the array's
  element `(5000 t + p, k)`; so what point `t` writes back is block `t` of the layer applied to the region's input
  arrays, the 20 blocks cover the array (row `r` lies in block `r / 5000`), and the output array after the region is
  that layer.
-/
import proofs.«166229_j14594298872163_2_alg».proof.Proof.Gen.KernelIdeal.Frame
import proofs.«166229_j14594298872163_2_alg».proof.Proof.Sage
import proofs.«166229_j14594298872163_2_alg».proof.Proof.Pay
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the 20 grid points: the row-blocked windows sit at block (t, 0), the resident ones at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer of the region's input arrays: neighbour sums, node features, the inverse-degree column read as one
    value per node, the two weight matrices, the bias row read as one value per feature. -/
abbrev G (c : Dev nD) : S100000x128.Idx → EReal :=
  Cert.Sage.layer Cert.Sage.relu (V c main_v38) (V c main_v27) (fun i => V c main_v15 (ix2 (i 0) (0 : Fin 1)))
    (V c main_arg6) (V c main_arg7) (fun i => V c main_v39 (ix2 (0 : Fin 1) (i 0)))

/-- Element `(p, k)` of the neighbour sums' block at point `t` is the array's element `(5000 t + p, k)`. -/
theorem read0 (c : Dev nD) (t : Fin cfg1.N) (p : Fin 5000) (k : Fin 128) (r : Fin 100000) (hr : r.val = t.val * 5000 + p.val) :
    iblk1 V c 0 t (ix2 p k) = V c main_v38 (ix2 r k) := by
  show V c main_v38 (((cfg1.win 0).blk t).view.emb (ix2 p k)) = V c main_v38 (ix2 r k)
  obtain ⟨e0, e1, -⟩ := idx_facts t
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the node features' block. -/
theorem read1 (c : Dev nD) (t : Fin cfg1.N) (p : Fin 5000) (k : Fin 128) (r : Fin 100000) (hr : r.val = t.val * 5000 + p.val) :
    iblk1 V c 1 t (ix2 p k) = V c main_v27 (ix2 r k) := by
  show V c main_v27 (((cfg1.win 1).blk t).view.emb (ix2 p k)) = V c main_v27 (ix2 r k)
  obtain ⟨-, -, e0, e1, -⟩ := idx_facts t
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Row `p` of the inverse-degree block at point `t` is row `5000 t + p` of the column. -/
theorem read2 (c : Dev nD) (t : Fin cfg1.N) (p : Fin 5000) (r : Fin 100000) (hr : r.val = t.val * 5000 + p.val) :
    iblk1 V c 2 t (ix2 p (0 : Fin 1)) = V c main_v15 (ix2 r (0 : Fin 1)) := by
  show V c main_v15 (((cfg1.win 2).blk t).view.emb (ix2 p (0 : Fin 1))) = V c main_v15 (ix2 r (0 : Fin 1))
  obtain ⟨-, -, -, -, e0, e1, -⟩ := idx_facts t
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- The first weight matrix is read whole at every point. -/
theorem read3 (c : Dev nD) (t : Fin cfg1.N) (k q : Fin 128) :
    iblk1 V c 3 t (ix2 k q) = V c main_arg6 (ix2 k q) := by
  show V c main_arg6 (((cfg1.win 3).blk t).view.emb (ix2 k q)) = V c main_arg6 (ix2 k q)
  obtain ⟨-, -, -, -, -, -, e0, e1, -⟩ := idx_facts t
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- So is the second. -/
theorem read4 (c : Dev nD) (t : Fin cfg1.N) (k q : Fin 128) :
    iblk1 V c 4 t (ix2 k q) = V c main_arg7 (ix2 k q) := by
  show V c main_arg7 (((cfg1.win 4).blk t).view.emb (ix2 k q)) = V c main_arg7 (ix2 k q)
  obtain ⟨-, -, -, -, -, -, -, -, e0, e1, -⟩ := idx_facts t
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- And the bias row. -/
theorem read5 (c : Dev nD) (t : Fin cfg1.N) (q : Fin 128) :
    iblk1 V c 5 t (ix2 (0 : Fin 1) q) = V c main_v39 (ix2 (0 : Fin 1) q) := by
  show V c main_v39 (((cfg1.win 5).blk t).view.emb (ix2 (0 : Fin 1) q)) = V c main_v39 (ix2 (0 : Fin 1) q)
  obtain ⟨-, -, -, -, -, -, -, -, -, -, e0, e1, -⟩ := idx_facts t
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- What point `t` writes back is block `t` of the layer's array. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 2 t) (iblk1 V c 1 t) (iblk1 V c 3 t) (iblk1 V c 4 t) (iblk1 V c 5 t) (ix2 p q) = G V c (((cfg1.win 6).blk t).view.emb (ix2 p q))
  refine (Cert.KernelIdeal.Pay.pay1_at (iblk1 V c 0 t) (iblk1 V c 2 t) (iblk1 V c 1 t) (iblk1 V c 3 t) (iblk1 V c 4 t) (iblk1 V c 5 t) p q).trans ?_
  have ht : t.val < 20 := lt_of_lt_of_eq t.isLt N_1
  have hp : p.val < 5000 := p.isLt
  obtain ⟨r, hr⟩ : ∃ r : Fin 100000, r.val = t.val * 5000 + p.val := ⟨⟨t.val * 5000 + p.val, by omega⟩, rfl⟩
  have hemb : ((cfg1.win 6).blk t).view.emb (ix2 p q) = ix2 r q := by
    obtain ⟨-, -, -, -, -, -, -, -, -, -, -, -, e0, e1⟩ := idx_facts t
    refine funext fun a => Fin.ext ?_
    match a with
    | ⟨0, _⟩ => show win1_6.index t (0 : Fin 2) * 5000 + 1 * p.val = r.val; omega
    | ⟨1, _⟩ => show win1_6.index t (1 : Fin 2) * 128 + 1 * q.val = q.val; omega
  refine Eq.trans ?_ (congrArg (G V c) hemb).symm
  show _ = Cert.Sage.layerAt Cert.Sage.relu (V c main_v38) (V c main_v27) (fun i => V c main_v15 (ix2 (i 0) (0 : Fin 1)))
    (V c main_arg6) (V c main_arg7) (fun i => V c main_v39 (ix2 (0 : Fin 1) (i 0))) r q
  unfold Cert.Sage.layerAt
  refine congrArg Cert.Sage.relu (congrArg₂ (· + ·) (congrArg₂ (· + ·) (Finset.sum_congr rfl fun k _ => ?_) (Finset.sum_congr rfl fun k _ => ?_)) ?_)
  · rw [read0 V c t p k r hr, read2 V c t p r hr, read3 V c t k q]
  · rw [read1 V c t p k r hr, read4 V c t k q]
  · exact read5 V c t q

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v40).slice (win1_6.rect t)).set ↔ _
  rw [View.set_slice_whole, Rect.mem_set_unit]
  exact Iff.rfl

/-- Every index lies in the block of the point its row's quotient by 5000 names. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [show cfg1.N = 20 from N_1]; omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The region's output array after the region: the layer of the region's input arrays. -/
theorem final (c : Dev nD) : (dat1 (F := Ideal) V c).arrAt 6 cfg1.N = G V c :=
  (dat1 (F := Ideal) V c).arrAt_eq_of_cover 6 (G V c) (fun t _ => flushed_eq V c t) cover

end Cert.KernelIdeal.Region1

end
-- ==== Proof.Region2.lean ====
/-
  Layer 3 as the kernel computes it. Region 2 of the kernel program runs its body at 20 grid points; point `t`
  reads rows 5000 t … 5000 t + 4999 of the neighbour sums, of the node features and of the inverse-degree column,
  the two weight matrices and the bias row whole, and writes the same rows of the output. The body's arithmetic at
  one index is the layer's formula over the block (`Pay.pay2_at`); a block's element `(p, k)` is the array's
  element `(5000 t + p, k)`; so what point `t` writes back is block `t` of the layer applied to the region's input
  arrays, the 20 blocks cover the array (row `r` lies in block `r / 5000`), and the output array after the region is
  that layer.
-/
import proofs.«166229_j14594298872163_2_alg».proof.Proof.Gen.KernelIdeal.Frame
import proofs.«166229_j14594298872163_2_alg».proof.Proof.Sage
import proofs.«166229_j14594298872163_2_alg».proof.Proof.Pay
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the 20 grid points: the row-blocked windows sit at block (t, 0), the resident ones at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer of the region's input arrays: neighbour sums, node features, the inverse-degree column read as one
    value per node, the two weight matrices, the bias row read as one value per feature. -/
abbrev G (c : Dev nD) : S100000x128.Idx → EReal :=
  Cert.Sage.layer id (V c main_v51) (V c main_v40) (fun i => V c main_v15 (ix2 (i 0) (0 : Fin 1)))
    (V c main_arg9) (V c main_arg10) (fun i => V c main_v52 (ix2 (0 : Fin 1) (i 0)))

/-- Element `(p, k)` of the neighbour sums' block at point `t` is the array's element `(5000 t + p, k)`. -/
theorem read0 (c : Dev nD) (t : Fin cfg2.N) (p : Fin 5000) (k : Fin 128) (r : Fin 100000) (hr : r.val = t.val * 5000 + p.val) :
    iblk2 V c 0 t (ix2 p k) = V c main_v51 (ix2 r k) := by
  show V c main_v51 (((cfg2.win 0).blk t).view.emb (ix2 p k)) = V c main_v51 (ix2 r k)
  obtain ⟨e0, e1, -⟩ := idx_facts t
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The same for the node features' block. -/
theorem read1 (c : Dev nD) (t : Fin cfg2.N) (p : Fin 5000) (k : Fin 128) (r : Fin 100000) (hr : r.val = t.val * 5000 + p.val) :
    iblk2 V c 1 t (ix2 p k) = V c main_v40 (ix2 r k) := by
  show V c main_v40 (((cfg2.win 1).blk t).view.emb (ix2 p k)) = V c main_v40 (ix2 r k)
  obtain ⟨-, -, e0, e1, -⟩ := idx_facts t
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Row `p` of the inverse-degree block at point `t` is row `5000 t + p` of the column. -/
theorem read2 (c : Dev nD) (t : Fin cfg2.N) (p : Fin 5000) (r : Fin 100000) (hr : r.val = t.val * 5000 + p.val) :
    iblk2 V c 2 t (ix2 p (0 : Fin 1)) = V c main_v15 (ix2 r (0 : Fin 1)) := by
  show V c main_v15 (((cfg2.win 2).blk t).view.emb (ix2 p (0 : Fin 1))) = V c main_v15 (ix2 r (0 : Fin 1))
  obtain ⟨-, -, -, -, e0, e1, -⟩ := idx_facts t
  refine congrArg _ (funext fun a => Fin.ext ?_)
  match a with
  | ⟨0, _⟩ => show win2_2.index t (0 : Fin 2) * 5000 + 1 * p.val = r.val; omega
  | ⟨1, _⟩ => show win2_2.index t (1 : Fin 2) * 1 + 1 * 0 = 0; omega

/-- The first weight matrix is read whole at every point. -/
theorem read3 (c : Dev nD) (t : Fin cfg2.N) (k q : Fin 128) :
    iblk2 V c 3 t (ix2 k q) = V c main_arg9 (ix2 k q) := by
  show V c main_arg9 (((cfg2.win 3).blk t).view.emb (ix2 k q)) = V c main_arg9 (ix2 k q)
  obtain ⟨-, -, -, -, -, -, e0, e1, -⟩ := idx_facts t
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- So is the second. -/
theorem read4 (c : Dev nD) (t : Fin cfg2.N) (k q : Fin 128) :
    iblk2 V c 4 t (ix2 k q) = V c main_arg10 (ix2 k q) := by
  show V c main_arg10 (((cfg2.win 4).blk t).view.emb (ix2 k q)) = V c main_arg10 (ix2 k q)
  obtain ⟨-, -, -, -, -, -, -, -, e0, e1, -⟩ := idx_facts t
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- And the bias row. -/
theorem read5 (c : Dev nD) (t : Fin cfg2.N) (q : Fin 128) :
    iblk2 V c 5 t (ix2 (0 : Fin 1) q) = V c main_v52 (ix2 (0 : Fin 1) q) := by
  show V c main_v52 (((cfg2.win 5).blk t).view.emb (ix2 (0 : Fin 1) q)) = V c main_v52 (ix2 (0 : Fin 1) q)
  obtain ⟨-, -, -, -, -, -, -, -, -, -, e0, e1, -⟩ := idx_facts t
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-- What point `t` writes back is block `t` of the layer's array. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k2_pay1 (iblk2 V c 0 t) (iblk2 V c 2 t) (iblk2 V c 1 t) (iblk2 V c 3 t) (iblk2 V c 4 t) (iblk2 V c 5 t) (ix2 p q) = G V c (((cfg2.win 6).blk t).view.emb (ix2 p q))
  refine (Cert.KernelIdeal.Pay.pay2_at (iblk2 V c 0 t) (iblk2 V c 2 t) (iblk2 V c 1 t) (iblk2 V c 3 t) (iblk2 V c 4 t) (iblk2 V c 5 t) p q).trans ?_
  have ht : t.val < 20 := lt_of_lt_of_eq t.isLt N_2
  have hp : p.val < 5000 := p.isLt
  obtain ⟨r, hr⟩ : ∃ r : Fin 100000, r.val = t.val * 5000 + p.val := ⟨⟨t.val * 5000 + p.val, by omega⟩, rfl⟩
  have hemb : ((cfg2.win 6).blk t).view.emb (ix2 p q) = ix2 r q := by
    obtain ⟨-, -, -, -, -, -, -, -, -, -, -, -, e0, e1⟩ := idx_facts t
    refine funext fun a => Fin.ext ?_
    match a with
    | ⟨0, _⟩ => show win2_6.index t (0 : Fin 2) * 5000 + 1 * p.val = r.val; omega
    | ⟨1, _⟩ => show win2_6.index t (1 : Fin 2) * 128 + 1 * q.val = q.val; omega
  refine Eq.trans ?_ (congrArg (G V c) hemb).symm
  show _ = Cert.Sage.layerAt id (V c main_v51) (V c main_v40) (fun i => V c main_v15 (ix2 (i 0) (0 : Fin 1)))
    (V c main_arg9) (V c main_arg10) (fun i => V c main_v52 (ix2 (0 : Fin 1) (i 0))) r q
  unfold Cert.Sage.layerAt
  dsimp only [id]
  refine congrArg₂ (· + ·) (congrArg₂ (· + ·) (Finset.sum_congr rfl fun k _ => ?_) (Finset.sum_congr rfl fun k _ => ?_)) ?_
  · rw [read0 V c t p k r hr, read2 V c t p r hr, read3 V c t k q]
  · rw [read1 V c t p k r hr, read4 V c t k q]
  · exact read5 V c t q

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v53).slice (win2_6.rect t)).set ↔ _
  rw [View.set_slice_whole, Rect.mem_set_unit]
  exact Iff.rfl

/-- Every index lies in the block of the point its row's quotient by 5000 names. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 := ⟨⟨(i 0).val / 5000, by rw [show cfg2.N = 20 from N_2]; omega⟩, rfl⟩
  obtain ⟨-, -, -, -, -, -, -, -, -, -, -, -, e0, e1⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The region's output array after the region: the layer of the region's input arrays. -/
theorem final (c : Dev nD) : (dat2 (F := Ideal) V c).arrAt 6 cfg2.N = G V c :=
  (dat2 (F := Ideal) V c).arrAt_eq_of_cover 6 (G V c) (fun t _ => flushed_eq V c t) cover

end Cert.KernelIdeal.Region2

end
-- ==== Proof.RefValue.lean ====
/-
  The reference program's result is the three-layer network.

  Each layer of the reference is a short run of host operations: the neighbour sums (a gather of rows followed by a
  scatter-add, never opened here), their product with the broadcast inverse degrees, two matrix products, two sums, and
  for the first two layers a maximum with zero. Read at an index `(r, q)` this run is literally the layer formula of the
  specification; the three layers then compose into the network.
-/
import proofs.«166229_j14594298872163_2_alg».proof.Proof.RefRead
import proofs.«166229_j14594298872163_2_alg».proof.Proof.Sage
noncomputable section
namespace Cert.ReferenceIdeal.RefValue
open Cert.ReferenceIdeal Cert.ReferenceIdeal.ReadP Idealize.ShloMosaic Idealize.ShloMosaic.ValueIdx

/-- The neighbour sums of a feature array `h`: the rows of `h` at the edges' sources, added up at the edges' targets
    (both index arrays are functions of the edge list `x2` alone). -/
def agg (x2 : (⟨S2x1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v22 (F := Ideal)) (val_main_v23 (F := Ideal) x2)
    (Host.gather gather_S100000x128_S1600000x1_S1600000x128_1_0_n_n_0_1_1128 h (val_main_v20 (F := Ideal) x2))

/-- The inverse degrees, one per node. -/
def dinv (x2 : (⟨S2x1600000, .i32⟩ : BufTy).Contents (Elt Ideal)) : (⟨S100000, .f32⟩ : BufTy).Contents (Elt Ideal) :=
  val_main_v14 (F := Ideal) x2

/-- An array that reads, at every node `r` and feature `q`, as the layer formula is the layer. -/
private theorem eq_layer (act : EReal → EReal) (out agg x : Cert.Sage.SN.Idx → EReal) (d : Cert.Sage.SD.Idx → EReal)
    (Wl Wr : Cert.Sage.SW.Idx → EReal) (b : Cert.Sage.SB.Idx → EReal)
    (h : ∀ (r : Fin 100000) (q : Fin 128), out (ix2 r q)
      = act ((∑ k : Fin 128, (agg (ix2 r k) * d (ix1 r)) * Wl (ix2 k q)) + (∑ k : Fin 128, x (ix2 r k) * Wr (ix2 k q)) + b (ix1 q))) :
    out = Cert.Sage.layer act agg x d Wl Wr b :=
  Cert.Sage.ext_ix2 fun r q => (h r q).trans (Cert.Sage.layer_ix2 act agg x d Wl Wr b r q).symm

/-! ### The first layer -/

/-- The first layer's scatter-add of gathered rows is the neighbour sum of its input (the zero array and the two index
    arrays are written out again in each layer, by the same operations). -/
private theorem agg_v24 (x1 : (⟨S100000x128, .f32⟩ : BufTy).Contents (Elt Ideal)) (x2 : (⟨S2x1600000, .i32⟩ : BufTy).Contents (Elt Ideal)) :
    val_main_v24 (F := Ideal) x1 x2 = agg x2 x1 := rfl

/-- The scaled neighbour sums at `(r, k)`: the inverse degree is broadcast along the features. -/
private theorem v27_at (x1 : (⟨S100000x128, .f32⟩ : BufTy).Contents (Elt Ideal)) (x2 : (⟨S2x1600000, .i32⟩ : BufTy).Contents (Elt Ideal)) (r : Fin 100000) (k : Fin 128) :
    val_main_v27 (F := Ideal) x1 x2 (ix2 r k) = agg x2 x1 (ix2 r k) * dinv x2 (ix1 r) := by
  have e : idx_main_v25 (idx_main_v26 (ix2 r k)) = ix1 r := funext fun a => Fin.ext (by match a with | ⟨0, _⟩ => rfl)
  rw [val_main_v27_apply, val_main_v26_apply, val_main_v25_apply, e, agg_v24, Ideal.mulf_def]
  rfl

/-- The product of the scaled neighbour sums with the left weight matrix at `(r, q)`. -/
private theorem v28_at (x1 : (⟨S100000x128, .f32⟩ : BufTy).Contents (Elt Ideal)) (x2 : (⟨S2x1600000, .i32⟩ : BufTy).Contents (Elt Ideal)) (x3 : (⟨S128x128, .f32⟩ : BufTy).Contents (Elt Ideal)) (r : Fin 100000) (q : Fin 128) :
    val_main_v28 (F := Ideal) x1 x2 x3 (ix2 r q)
      = ∑ k : Fin 128, (agg x2 x1 (ix2 r k) * dinv x2 (ix1 r)) * x3 (ix2 k q) := by
  rw [val_main_v28_apply]
  refine Finset.sum_congr rfl fun k _ => ?_
  have el : lidx_main_v28 (ix2 r q) k = ix2 r k := funext fun a => Fin.ext (by match a with | ⟨0, _⟩ => rfl | ⟨1, _⟩ => rfl)
  have er : ridx_main_v28 (ix2 r q) k = ix2 k q := funext fun a => Fin.ext (by match a with | ⟨0, _⟩ => rfl | ⟨1, _⟩ => rfl)
  rw [el, er, v27_at]

/-- The product of the layer's input with the right weight matrix at `(r, q)`. -/
private theorem v29_at (x1 : (⟨S100000x128, .f32⟩ : BufTy).Contents (Elt Ideal)) (x4 : (⟨S128x128, .f32⟩ : BufTy).Contents (Elt Ideal)) (r : Fin 100000) (q : Fin 128) :
    val_main_v29 (F := Ideal) x1 x4 (ix2 r q)
      = ∑ k : Fin 128, x1 (ix2 r k) * x4 (ix2 k q) := by
  rw [val_main_v29_apply]
  refine Finset.sum_congr rfl fun k _ => ?_
  have el : lidx_main_v29 (ix2 r q) k = ix2 r k := funext fun a => Fin.ext (by match a with | ⟨0, _⟩ => rfl | ⟨1, _⟩ => rfl)
  have er : ridx_main_v29 (ix2 r q) k = ix2 k q := funext fun a => Fin.ext (by match a with | ⟨0, _⟩ => rfl | ⟨1, _⟩ => rfl)
  rw [el, er]

/-- The bias row broadcast over the nodes reads the bias at the feature. -/
private theorem v32_at (x5 : (⟨S128, .f32⟩ : BufTy).Contents (Elt Ideal)) (r : Fin 100000) (q : Fin 128) :
    val_main_v32 (F := Ideal) x5 (ix2 r q) = x5 (ix1 q) := by
  have e : idx_main_v31 (idx_main_v32 (ix2 r q)) = ix1 q := funext fun a => Fin.ext (by match a with | ⟨0, _⟩ => rfl)
  rw [val_main_v32_apply, val_main_v31_apply, e]

/-- The rectifier's other operand is the zero array. -/
private theorem call1_zero (i : S100000x128.Idx) : val_main_call1_v0 (F := Ideal) i = 0 := by
  rw [val_main_call1_v0_apply, val_main_call1_cst_apply, Ideal.ofBits_def, Ideal.ofBits_zero_f32]

/-- The first layer of the reference is the specification's rectified layer of its input. -/
theorem layer1 (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) :
    val_main_v34 (F := Ideal) x1 x2 x3 x4 x5
      = Cert.Sage.layer Cert.Sage.relu (agg x2 x1) x1 (dinv x2) x3 x4 x5 := by
  refine eq_layer _ _ _ _ _ _ _ _ fun r q => ?_
  rw [val_main_v34_apply, val_main_v33_apply, val_main_v30_apply, v28_at, v29_at, v32_at, call1_zero,
    Ideal.maximumf_def, Ideal.addf_def, Ideal.addf_def]
  rfl

/-! ### The second layer -/

/-- The second layer's scatter-add of gathered rows is the neighbour sum of its input (the zero array and the two index
    arrays are written out again in each layer, by the same operations). -/
private theorem agg_v44 (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) :
    val_main_v44 (F := Ideal) x1 x2 x3 x4 x5 = agg x2 (val_main_v34 (F := Ideal) x1 x2 x3 x4 x5) := rfl

/-- The scaled neighbour sums at `(r, k)`: the inverse degree is broadcast along the features. -/
private theorem v47_at (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (r : Fin 100000) (k : Fin 128) :
    val_main_v47 (F := Ideal) x1 x2 x3 x4 x5 (ix2 r k) = agg x2 (val_main_v34 (F := Ideal) x1 x2 x3 x4 x5) (ix2 r k) * dinv x2 (ix1 r) := by
  have e : idx_main_v45 (idx_main_v46 (ix2 r k)) = ix1 r := funext fun a => Fin.ext (by match a with | ⟨0, _⟩ => rfl)
  rw [val_main_v47_apply, val_main_v46_apply, val_main_v45_apply, e, agg_v44, Ideal.mulf_def]
  rfl

/-- The product of the scaled neighbour sums with the left weight matrix at `(r, q)`. -/
private theorem v48_at (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (r : Fin 100000) (q : Fin 128) :
    val_main_v48 (F := Ideal) x1 x2 x3 x4 x5 x6 (ix2 r q)
      = ∑ k : Fin 128, (agg x2 (val_main_v34 (F := Ideal) x1 x2 x3 x4 x5) (ix2 r k) * dinv x2 (ix1 r)) * x6 (ix2 k q) := by
  rw [val_main_v48_apply]
  refine Finset.sum_congr rfl fun k _ => ?_
  have el : lidx_main_v48 (ix2 r q) k = ix2 r k := funext fun a => Fin.ext (by match a with | ⟨0, _⟩ => rfl | ⟨1, _⟩ => rfl)
  have er : ridx_main_v48 (ix2 r q) k = ix2 k q := funext fun a => Fin.ext (by match a with | ⟨0, _⟩ => rfl | ⟨1, _⟩ => rfl)
  rw [el, er, v47_at]

/-- The product of the layer's input with the right weight matrix at `(r, q)`. -/
private theorem v49_at (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x7 : (⟨S128x128, .f32⟩ : BufTy).Contents (Elt Ideal)) (r : Fin 100000) (q : Fin 128) :
    val_main_v49 (F := Ideal) x1 x2 x3 x4 x5 x7 (ix2 r q)
      = ∑ k : Fin 128, (val_main_v34 (F := Ideal) x1 x2 x3 x4 x5) (ix2 r k) * x7 (ix2 k q) := by
  rw [val_main_v49_apply]
  refine Finset.sum_congr rfl fun k _ => ?_
  have el : lidx_main_v49 (ix2 r q) k = ix2 r k := funext fun a => Fin.ext (by match a with | ⟨0, _⟩ => rfl | ⟨1, _⟩ => rfl)
  have er : ridx_main_v49 (ix2 r q) k = ix2 k q := funext fun a => Fin.ext (by match a with | ⟨0, _⟩ => rfl | ⟨1, _⟩ => rfl)
  rw [el, er]

/-- The bias row broadcast over the nodes reads the bias at the feature. -/
private theorem v52_at (x8 : (⟨S128, .f32⟩ : BufTy).Contents (Elt Ideal)) (r : Fin 100000) (q : Fin 128) :
    val_main_v52 (F := Ideal) x8 (ix2 r q) = x8 (ix1 q) := by
  have e : idx_main_v51 (idx_main_v52 (ix2 r q)) = ix1 q := funext fun a => Fin.ext (by match a with | ⟨0, _⟩ => rfl)
  rw [val_main_v52_apply, val_main_v51_apply, e]

/-- The rectifier's other operand is the zero array. -/
private theorem call2_zero (i : S100000x128.Idx) : val_main_call2_v0 (F := Ideal) i = 0 := by
  rw [val_main_call2_v0_apply, val_main_call2_cst_apply, Ideal.ofBits_def, Ideal.ofBits_zero_f32]

/-- The second layer of the reference is the specification's rectified layer of its input. -/
theorem layer2 (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) :
    val_main_v54 (F := Ideal) x1 x2 x3 x4 x5 x6 x7 x8
      = Cert.Sage.layer Cert.Sage.relu (agg x2 (val_main_v34 (F := Ideal) x1 x2 x3 x4 x5)) (val_main_v34 (F := Ideal) x1 x2 x3 x4 x5) (dinv x2) x6 x7 x8 := by
  refine eq_layer _ _ _ _ _ _ _ _ fun r q => ?_
  rw [val_main_v54_apply, val_main_v53_apply, val_main_v50_apply, v48_at, v49_at, v52_at, call2_zero,
    Ideal.maximumf_def, Ideal.addf_def, Ideal.addf_def]
  rfl

/-! ### The third layer -/

/-- The third layer's scatter-add of gathered rows is the neighbour sum of its input (the zero array and the two index
    arrays are written out again in each layer, by the same operations). -/
private theorem agg_v64 (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) :
    val_main_v64 (F := Ideal) x1 x2 x3 x4 x5 x6 x7 x8 = agg x2 (val_main_v54 (F := Ideal) x1 x2 x3 x4 x5 x6 x7 x8) := rfl

/-- The scaled neighbour sums at `(r, k)`: the inverse degree is broadcast along the features. -/
private theorem v67_at (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (r : Fin 100000) (k : Fin 128) :
    val_main_v67 (F := Ideal) x1 x2 x3 x4 x5 x6 x7 x8 (ix2 r k) = agg x2 (val_main_v54 (F := Ideal) x1 x2 x3 x4 x5 x6 x7 x8) (ix2 r k) * dinv x2 (ix1 r) := by
  have e : idx_main_v65 (idx_main_v66 (ix2 r k)) = ix1 r := funext fun a => Fin.ext (by match a with | ⟨0, _⟩ => rfl)
  rw [val_main_v67_apply, val_main_v66_apply, val_main_v65_apply, e, agg_v64, Ideal.mulf_def]
  rfl

/-- The product of the scaled neighbour sums with the left weight matrix at `(r, q)`. -/
private theorem v68_at (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (r : Fin 100000) (q : Fin 128) :
    val_main_v68 (F := Ideal) x1 x2 x3 x4 x5 x6 x7 x8 x9 (ix2 r q)
      = ∑ k : Fin 128, (agg x2 (val_main_v54 (F := Ideal) x1 x2 x3 x4 x5 x6 x7 x8) (ix2 r k) * dinv x2 (ix1 r)) * x9 (ix2 k q) := by
  rw [val_main_v68_apply]
  refine Finset.sum_congr rfl fun k _ => ?_
  have el : lidx_main_v68 (ix2 r q) k = ix2 r k := funext fun a => Fin.ext (by match a with | ⟨0, _⟩ => rfl | ⟨1, _⟩ => rfl)
  have er : ridx_main_v68 (ix2 r q) k = ix2 k q := funext fun a => Fin.ext (by match a with | ⟨0, _⟩ => rfl | ⟨1, _⟩ => rfl)
  rw [el, er, v67_at]

/-- The product of the layer's input with the right weight matrix at `(r, q)`. -/
private theorem v69_at (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x10 : (⟨S128x128, .f32⟩ : BufTy).Contents (Elt Ideal)) (r : Fin 100000) (q : Fin 128) :
    val_main_v69 (F := Ideal) x1 x2 x3 x4 x5 x6 x7 x8 x10 (ix2 r q)
      = ∑ k : Fin 128, (val_main_v54 (F := Ideal) x1 x2 x3 x4 x5 x6 x7 x8) (ix2 r k) * x10 (ix2 k q) := by
  rw [val_main_v69_apply]
  refine Finset.sum_congr rfl fun k _ => ?_
  have el : lidx_main_v69 (ix2 r q) k = ix2 r k := funext fun a => Fin.ext (by match a with | ⟨0, _⟩ => rfl | ⟨1, _⟩ => rfl)
  have er : ridx_main_v69 (ix2 r q) k = ix2 k q := funext fun a => Fin.ext (by match a with | ⟨0, _⟩ => rfl | ⟨1, _⟩ => rfl)
  rw [el, er]

/-- The bias row broadcast over the nodes reads the bias at the feature. -/
private theorem v72_at (x11 : (⟨S128, .f32⟩ : BufTy).Contents (Elt Ideal)) (r : Fin 100000) (q : Fin 128) :
    val_main_v72 (F := Ideal) x11 (ix2 r q) = x11 (ix1 q) := by
  have e : idx_main_v71 (idx_main_v72 (ix2 r q)) = ix1 q := funext fun a => Fin.ext (by match a with | ⟨0, _⟩ => rfl)
  rw [val_main_v72_apply, val_main_v71_apply, e]

/-- The third layer of the reference is the specification's plain layer of its input. -/
theorem layer3 (x1 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) :
    val_main_v73 (F := Ideal) x1 x2 x3 x4 x5 x6 x7 x8 x9 x10 x11
      = Cert.Sage.layer id (agg x2 (val_main_v54 (F := Ideal) x1 x2 x3 x4 x5 x6 x7 x8)) (val_main_v54 (F := Ideal) x1 x2 x3 x4 x5 x6 x7 x8) (dinv x2) x9 x10 x11 := by
  refine eq_layer _ _ _ _ _ _ _ _ fun r q => ?_
  rw [val_main_v73_apply, val_main_v70_apply, v68_at, v69_at, v72_at, Ideal.addf_def, Ideal.addf_def]
  exact (id_eq _).symm

/-! ### The network -/

/-- The reference's result is the three-layer network over the neighbour sums `agg x2` and the inverse degrees `dinv x2`. -/
theorem ref_value (x1 : (⟨S100000x128, .f32⟩ : BufTy).Contents (Elt Ideal)) (x2 : (⟨S2x1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal)) :
    val_main_v73 (F := Ideal) x1 x2 x3 x4 x5 x6 x7 x8 x9 x10 x11
      = Cert.Sage.net (agg x2) (dinv x2) x1 x3 x4 x5 x6 x7 x8 x9 x10 x11 := by
  unfold Cert.Sage.net
  rw [layer3, layer2, layer1]

end Cert.ReferenceIdeal.RefValue
end
-- ==== Proof.KChain.lean ====
/-
  The host operations of the kernel program, read back. Between the kernel regions the program gathers the rows of a
  feature array at the edges' sources and adds them up at the edges' targets (the neighbour sums), and before the
  first region it computes the inverse degrees and reshapes each bias vector to a row. Each of these results is a
  function of a few buffers the stretch does not write; from ANY contents at the stretch's entry the result buffer
  holds that function of those buffers (`agg_result…`, `bias_result…`, `reshape15_result`, `where_result`). The two
  index vectors (sources, targets) and the inverse degrees are functions of the edge list alone, and as such are the
  reference's own stages (`W3_v1`, `W3_v3`, `V3_v15`); so the neighbour sums are the reference's (`aggOf_ref`).
  The gather and the scatter-add are never opened.
-/
import proofs.«166229_j14594298872163_2_alg».proof.Proof.Gen.KernelIdeal.Frame
import proofs.«166229_j14594298872163_2_alg».proof.Proof.RefRead
import proofs.«166229_j14594298872163_2_alg».proof.Proof.RefValue
import Idealize.ShloMosaic.Lib.StableHlo.Run

set_option maxRecDepth 16384

noncomputable section

namespace Cert.KernelIdeal.Chain

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg)

/-! ## The inverse degrees -/

/-- The conditional's three host operations from any contents: the quotient where the degree is positive, zero
    elsewhere. -/
theorem where_result (X : Valuation τ sig (Elt Ideal)) :
    after (hostOps0_1 (F := Ideal)) X (Proc.devRef .tc main_v14)
      = select (X (Proc.devRef .tc main_v9)) (X (Proc.devRef .tc main_v13))
          (broadcastInDim S100000 ![] bcast_S_S100000 (id (X (Proc.devRef .tc main_cst_4)))) := by
  dsimp only [hostOps0_1]
  after_results_simp
  rfl

/-- "The degree is positive", per node: the reference's stage of the edge list. -/
theorem W1_v9 (c : Dev nD) : W1 m ρ c (Proc.devRef .tc main_v9)
    = Cert.ReferenceIdeal.ReadP.val_main_v9 (F := Ideal) (m ((c : Thread nD τ).loc main_arg2)) := by
  dsimp only [W1, hostOps0]
  after_results_simp
  rfl

/-- One over the degree raised to at least one, per node: the reference's stage of the edge list. -/
theorem W1_v13 (c : Dev nD) : W1 m ρ c (Proc.devRef .tc main_v13)
    = Cert.ReferenceIdeal.ReadP.val_main_v13 (F := Ideal) (m ((c : Thread nD τ).loc main_arg2)) := by
  dsimp only [W1, hostOps0]
  after_results_simp
  rfl

/-- The zero the conditional falls back to. -/
theorem W1_cst_4 (c : Dev nD) : W1 m ρ c (Proc.devRef .tc main_cst_4)
    = Cert.ReferenceIdeal.ReadP.val_main_cst_4 (F := Ideal) := by
  dsimp only [W1, hostOps0]
  after_results_simp
  rfl

/-- The inverse degrees are the reference's stage of the edge list. -/
theorem W2_v14 (c : Dev nD) : W2 m ρ c (Proc.devRef .tc main_v14)
    = Cert.ReferenceIdeal.ReadP.val_main_v14 (F := Ideal) (m ((c : Thread nD τ).loc main_arg2)) :=
  (where_result (W1 m ρ c)).trans
    (congr (congr (congrArg select (W1_v9 m ρ c)) (W1_v13 m ρ c))
      (congrArg (broadcastInDim S100000 ![] bcast_S_S100000) (congrArg id (W1_cst_4 m ρ c))))

/-- The inverse degrees as a column, from any contents. -/
theorem reshape15_result (X : Valuation τ sig (Elt Ideal)) :
    after (hostOps0_2 (F := Ideal)) X (Proc.devRef .tc main_v15)
      = shapeCast S100000x1 (X (Proc.devRef .tc main_v14)) shapeCasts_S100000_S100000x1 := by
  dsimp only [hostOps0_2]
  after_results_simp
  rfl

/-- The inverse-degree column at the first region's entry: the reference's inverse degrees, reshaped. -/
theorem V3_v15 (c : Dev nD) : W3 m ρ c (Proc.devRef .tc main_v15)
    = shapeCast S100000x1 (Cert.ReferenceIdeal.ReadP.val_main_v14 (F := Ideal) (m ((c : Thread nD τ).loc main_arg2))) shapeCasts_S100000_S100000x1 :=
  (reshape15_result (W2 m ρ c)).trans
    (congrArg (fun v => shapeCast S100000x1 v shapeCasts_S100000_S100000x1) (W2_v14 m ρ c))

/-! ## The neighbour sums -/

/-- The source-row indices as a column: a negative index counts from the end. -/
def srcOf (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbour sums of `h`: its rows at the sources `s`, added up at the targets `d`, from zero. -/
def aggOf (s d : (⟨S1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h (srcOf s))

/-- Before the first region: the neighbour sums of the node features. -/
theorem agg_result0 (X : Valuation τ sig (Elt Ideal)) :
    after (hostOps0_2 (F := Ideal)) X (Proc.devRef .tc main_v25)
      = aggOf (after (hostOps0_2 (F := Ideal)) X (Proc.devRef .tc main_v1)) (after (hostOps0_2 (F := Ideal)) X (Proc.devRef .tc main_v3))
          (after (hostOps0_2 (F := Ideal)) X (Proc.devRef .tc main_arg1)) := by
  dsimp only [hostOps0_2]
  after_results_simp
  rfl

/-- Between the first two regions: the neighbour sums of the first layer's output (stored in the narrow format and
    widened after the gather: no change of value). -/
theorem agg_result1 (X : Valuation τ sig (Elt Ideal)) :
    after (hostOps1 (F := Ideal)) X (Proc.devRef .tc main_v38)
      = aggOf (after (hostOps1 (F := Ideal)) X (Proc.devRef .tc main_v1)) (after (hostOps1 (F := Ideal)) X (Proc.devRef .tc main_v3))
          (after (hostOps1 (F := Ideal)) X (Proc.devRef .tc main_v27)) := by
  dsimp only [hostOps1]
  after_results_simp
  rfl

/-- Between the last two regions: the neighbour sums of the second layer's output. -/
theorem agg_result2 (X : Valuation τ sig (Elt Ideal)) :
    after (hostOps2 (F := Ideal)) X (Proc.devRef .tc main_v51)
      = aggOf (after (hostOps2 (F := Ideal)) X (Proc.devRef .tc main_v1)) (after (hostOps2 (F := Ideal)) X (Proc.devRef .tc main_v3))
          (after (hostOps2 (F := Ideal)) X (Proc.devRef .tc main_v40)) := by
  dsimp only [hostOps2]
  after_results_simp
  rfl

/-! ## The bias rows -/

theorem bias_result0 (X : Valuation τ sig (Elt Ideal)) :
    after (hostOps0_2 (F := Ideal)) X (Proc.devRef .tc main_v26)
      = shapeCast S1x128 (after (hostOps0_2 (F := Ideal)) X (Proc.devRef .tc main_arg5)) shapeCasts_S128_S1x128 := by
  dsimp only [hostOps0_2]
  after_results_simp
  rfl

theorem bias_result1 (X : Valuation τ sig (Elt Ideal)) :
    after (hostOps1 (F := Ideal)) X (Proc.devRef .tc main_v39)
      = shapeCast S1x128 (after (hostOps1 (F := Ideal)) X (Proc.devRef .tc main_arg8)) shapeCasts_S128_S1x128 := by
  dsimp only [hostOps1]
  after_results_simp
  rfl

theorem bias_result2 (X : Valuation τ sig (Elt Ideal)) :
    after (hostOps2 (F := Ideal)) X (Proc.devRef .tc main_v52)
      = shapeCast S1x128 (after (hostOps2 (F := Ideal)) X (Proc.devRef .tc main_arg11)) shapeCasts_S128_S1x128 := by
  dsimp only [hostOps2]
  after_results_simp
  rfl

/-! ## The two index vectors are the reference's -/

/-- The edges' sources: row 0 of the edge list, flattened. -/
theorem W3_v1 (c : Dev nD) : W3 m ρ c (Proc.devRef .tc main_v1)
    = Cert.ReferenceIdeal.ReadP.val_main_v1 (F := Ideal) (m ((c : Thread nD τ).loc main_arg2)) := by
  dsimp only [W3, W2, W1, hostOps0_2, hostOps0_1, hostOps0]
  after_results_simp
  rfl

/-- The edges' targets: row 1 of the edge list, flattened. -/
theorem W3_v3 (c : Dev nD) : W3 m ρ c (Proc.devRef .tc main_v3)
    = Cert.ReferenceIdeal.ReadP.val_main_v3 (F := Ideal) (m ((c : Thread nD τ).loc main_arg2)) := by
  dsimp only [W3, W2, W1, hostOps0_2, hostOps0_1, hostOps0]
  after_results_simp
  rfl

/-- The neighbour sums over the edge list's two rows are the reference's: the same gather and the same
    scatter-add of the same index arrays. -/
theorem aggOf_ref (e : (⟨S2x1600000, .i32⟩ : BufTy).Contents (Elt Ideal)) (h : (⟨S100000x128, .f32⟩ : BufTy).Contents (Elt Ideal)) :
    aggOf (Cert.ReferenceIdeal.ReadP.val_main_v1 (F := Ideal) e) (Cert.ReferenceIdeal.ReadP.val_main_v3 (F := Ideal) e) h
      = Cert.ReferenceIdeal.RefValue.agg e h := rfl

end Cert.KernelIdeal.Chain

end
-- ==== Proof.KKeep.lean ====
/-
  Which buffers the host operations and the three regions leave as they found them.

  The program is stretches of host operations around three regions, one per layer. A stretch of host operations
  keeps every buffer none of its operations writes; a region keeps every buffer that is none of its arrays, and
  also each of its input arrays. Walking back through these steps: each argument still holds its launch contents
  where a region reads it; the edge lists and the inverse degrees computed before the first region are the same
  at every later region's entry; and a layer's output reaches the next region's entry as the region left it.
-/
import proofs.«166229_j14594298872163_2_alg».proof.Proof.Gen.KernelIdeal.Frame

set_option maxRecDepth 16384

noncomputable section

namespace Cert.KernelIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- A stretch of host operations keeps a buffer none of them writes: each operation's written buffer is compared
    with the given one. -/
local macro "host_keeps " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## Arguments at the first region's entry

No host operation before the first region writes an argument's buffer, so there it still holds what it was launched
with. -/

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_keeps hostOps0_2 main_arg1
    _ = W1 m ρ c (Proc.devRef .tc main_arg1) := by host_keeps hostOps0_1 main_arg1
    _ = W0 m ρ c (Proc.devRef .tc main_arg1) := by host_keeps hostOps0 main_arg1
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2 main_arg2
    _ = W1 m ρ c (Proc.devRef .tc main_arg2) := by host_keeps hostOps0_1 main_arg2
    _ = W0 m ρ c (Proc.devRef .tc main_arg2) := by host_keeps hostOps0 main_arg2
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2 main_arg3
    _ = W1 m ρ c (Proc.devRef .tc main_arg3) := by host_keeps hostOps0_1 main_arg3
    _ = W0 m ρ c (Proc.devRef .tc main_arg3) := by host_keeps hostOps0 main_arg3
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by host_keeps hostOps0_2 main_arg4
    _ = W1 m ρ c (Proc.devRef .tc main_arg4) := by host_keeps hostOps0_1 main_arg4
    _ = W0 m ρ c (Proc.devRef .tc main_arg4) := by host_keeps hostOps0 main_arg4
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keeps hostOps0_2 main_arg5
    _ = W1 m ρ c (Proc.devRef .tc main_arg5) := by host_keeps hostOps0_1 main_arg5
    _ = W0 m ρ c (Proc.devRef .tc main_arg5) := by host_keeps hostOps0 main_arg5
    _ = m ((c : Thread nD τ).loc main_arg5) := rfl
private theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_keeps hostOps0_2 main_arg6
    _ = W1 m ρ c (Proc.devRef .tc main_arg6) := by host_keeps hostOps0_1 main_arg6
    _ = W0 m ρ c (Proc.devRef .tc main_arg6) := by host_keeps hostOps0 main_arg6
    _ = m ((c : Thread nD τ).loc main_arg6) := rfl
private theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_keeps hostOps0_2 main_arg7
    _ = W1 m ρ c (Proc.devRef .tc main_arg7) := by host_keeps hostOps0_1 main_arg7
    _ = W0 m ρ c (Proc.devRef .tc main_arg7) := by host_keeps hostOps0 main_arg7
    _ = m ((c : Thread nD τ).loc main_arg7) := rfl
private theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by host_keeps hostOps0_2 main_arg8
    _ = W1 m ρ c (Proc.devRef .tc main_arg8) := by host_keeps hostOps0_1 main_arg8
    _ = W0 m ρ c (Proc.devRef .tc main_arg8) := by host_keeps hostOps0 main_arg8
    _ = m ((c : Thread nD τ).loc main_arg8) := rfl
private theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by host_keeps hostOps0_2 main_arg9
    _ = W1 m ρ c (Proc.devRef .tc main_arg9) := by host_keeps hostOps0_1 main_arg9
    _ = W0 m ρ c (Proc.devRef .tc main_arg9) := by host_keeps hostOps0 main_arg9
    _ = m ((c : Thread nD τ).loc main_arg9) := rfl
private theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by host_keeps hostOps0_2 main_arg10
    _ = W1 m ρ c (Proc.devRef .tc main_arg10) := by host_keeps hostOps0_1 main_arg10
    _ = W0 m ρ c (Proc.devRef .tc main_arg10) := by host_keeps hostOps0 main_arg10
    _ = m ((c : Thread nD τ).loc main_arg10) := rfl
private theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by host_keeps hostOps0_2 main_arg11
    _ = W1 m ρ c (Proc.devRef .tc main_arg11) := by host_keeps hostOps0_1 main_arg11
    _ = W0 m ρ c (Proc.devRef .tc main_arg11) := by host_keeps hostOps0 main_arg11
    _ = m ((c : Thread nD τ).loc main_arg11) := rfl

/-! ## Arguments at the second region's entry

The second layer's weights and bias are no array of the first region, and no host operation between the two regions
writes them. -/

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by host_keeps hostOps1 main_arg6
    _ = W3 m ρ c (Proc.devRef .tc main_arg6) := W4_of_ne m ρ c main_arg6 (by decide)
    _ = m ((c : Thread nD τ).loc main_arg6) := W3_main_arg6 m ρ c
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by host_keeps hostOps1 main_arg7
    _ = W3 m ρ c (Proc.devRef .tc main_arg7) := W4_of_ne m ρ c main_arg7 (by decide)
    _ = m ((c : Thread nD τ).loc main_arg7) := W3_main_arg7 m ρ c
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by host_keeps hostOps1 main_arg8
    _ = W3 m ρ c (Proc.devRef .tc main_arg8) := W4_of_ne m ρ c main_arg8 (by decide)
    _ = m ((c : Thread nD τ).loc main_arg8) := W3_main_arg8 m ρ c
private theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := by host_keeps hostOps1 main_arg9
    _ = W3 m ρ c (Proc.devRef .tc main_arg9) := W4_of_ne m ρ c main_arg9 (by decide)
    _ = m ((c : Thread nD τ).loc main_arg9) := W3_main_arg9 m ρ c
private theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := by host_keeps hostOps1 main_arg10
    _ = W3 m ρ c (Proc.devRef .tc main_arg10) := W4_of_ne m ρ c main_arg10 (by decide)
    _ = m ((c : Thread nD τ).loc main_arg10) := W3_main_arg10 m ρ c
private theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := by host_keeps hostOps1 main_arg11
    _ = W3 m ρ c (Proc.devRef .tc main_arg11) := W4_of_ne m ρ c main_arg11 (by decide)
    _ = m ((c : Thread nD τ).loc main_arg11) := W3_main_arg11 m ρ c

/-! ## Arguments at the third region's entry

Likewise the third layer's weights and bias pass the second region and the host operations after it untouched. -/

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := by host_keeps hostOps2 main_arg9
    _ = W5 m ρ c (Proc.devRef .tc main_arg9) := W6_of_ne m ρ c main_arg9 (by decide)
    _ = m ((c : Thread nD τ).loc main_arg9) := W5_main_arg9 m ρ c
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by host_keeps hostOps2 main_arg10
    _ = W5 m ρ c (Proc.devRef .tc main_arg10) := W6_of_ne m ρ c main_arg10 (by decide)
    _ = m ((c : Thread nD τ).loc main_arg10) := W5_main_arg10 m ρ c
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := by host_keeps hostOps2 main_arg11
    _ = W5 m ρ c (Proc.devRef .tc main_arg11) := W6_of_ne m ρ c main_arg11 (by decide)
    _ = m ((c : Thread nD τ).loc main_arg11) := W5_main_arg11 m ρ c

/-! ## The edge lists and the inverse degrees

The two edge index lists `main_v1`, `main_v3` are written once, before the first region, and are no array of any
region. The inverse degrees `main_v15` are an input array of every region (window 2), and an input array leaves a
region as it entered it; no host operation between regions writes any of the three. -/

theorem W5_main_v1 (c : Dev nD) : W5 m ρ c (Proc.devRef .tc main_v1) = W3 m ρ c (Proc.devRef .tc main_v1) :=
  calc W5 m ρ c (Proc.devRef .tc main_v1)
    _ = W4 m ρ c (Proc.devRef .tc main_v1) := by host_keeps hostOps1 main_v1
    _ = W3 m ρ c (Proc.devRef .tc main_v1) := W4_of_ne m ρ c main_v1 (by decide)
theorem W7_main_v1 (c : Dev nD) : W7 m ρ c (Proc.devRef .tc main_v1) = W3 m ρ c (Proc.devRef .tc main_v1) :=
  calc W7 m ρ c (Proc.devRef .tc main_v1)
    _ = W6 m ρ c (Proc.devRef .tc main_v1) := by host_keeps hostOps2 main_v1
    _ = W5 m ρ c (Proc.devRef .tc main_v1) := W6_of_ne m ρ c main_v1 (by decide)
    _ = W3 m ρ c (Proc.devRef .tc main_v1) := W5_main_v1 m ρ c
theorem W5_main_v3 (c : Dev nD) : W5 m ρ c (Proc.devRef .tc main_v3) = W3 m ρ c (Proc.devRef .tc main_v3) :=
  calc W5 m ρ c (Proc.devRef .tc main_v3)
    _ = W4 m ρ c (Proc.devRef .tc main_v3) := by host_keeps hostOps1 main_v3
    _ = W3 m ρ c (Proc.devRef .tc main_v3) := W4_of_ne m ρ c main_v3 (by decide)
theorem W7_main_v3 (c : Dev nD) : W7 m ρ c (Proc.devRef .tc main_v3) = W3 m ρ c (Proc.devRef .tc main_v3) :=
  calc W7 m ρ c (Proc.devRef .tc main_v3)
    _ = W6 m ρ c (Proc.devRef .tc main_v3) := by host_keeps hostOps2 main_v3
    _ = W5 m ρ c (Proc.devRef .tc main_v3) := W6_of_ne m ρ c main_v3 (by decide)
    _ = W3 m ρ c (Proc.devRef .tc main_v3) := W5_main_v3 m ρ c
theorem W5_main_v15 (c : Dev nD) : W5 m ρ c (Proc.devRef .tc main_v15) = W3 m ρ c (Proc.devRef .tc main_v15) :=
  calc W5 m ρ c (Proc.devRef .tc main_v15)
    _ = W4 m ρ c (Proc.devRef .tc main_v15) := by host_keeps hostOps1 main_v15
    _ = W3 m ρ c (Proc.devRef .tc main_v15) := (W4_arr m ρ c 2).trans (((dat0 (V3 m ρ) c).arrAt_in 2 rfl _).trans (A_eq0 (V3 m ρ) c 2))
theorem W7_main_v15 (c : Dev nD) : W7 m ρ c (Proc.devRef .tc main_v15) = W3 m ρ c (Proc.devRef .tc main_v15) :=
  calc W7 m ρ c (Proc.devRef .tc main_v15)
    _ = W6 m ρ c (Proc.devRef .tc main_v15) := by host_keeps hostOps2 main_v15
    _ = W5 m ρ c (Proc.devRef .tc main_v15) := (W6_arr m ρ c 2).trans (((dat1 (V5 m ρ) c).arrAt_in 2 rfl _).trans (A_eq1 (V5 m ρ) c 2))
    _ = W3 m ρ c (Proc.devRef .tc main_v15) := W5_main_v15 m ρ c

/-! ## A layer's output at the next region's entry

No host operation between two regions writes the earlier region's output array (they only read it). -/

theorem W5_main_v27 (c : Dev nD) : W5 m ρ c (Proc.devRef .tc main_v27) = W4 m ρ c (Proc.devRef .tc main_v27) :=
  calc W5 m ρ c (Proc.devRef .tc main_v27)
    _ = W4 m ρ c (Proc.devRef .tc main_v27) := by host_keeps hostOps1 main_v27
theorem W7_main_v40 (c : Dev nD) : W7 m ρ c (Proc.devRef .tc main_v40) = W6 m ρ c (Proc.devRef .tc main_v40) :=
  calc W7 m ρ c (Proc.devRef .tc main_v40)
    _ = W6 m ρ c (Proc.devRef .tc main_v40) := by host_keeps hostOps2 main_v40

end Cert.KernelIdeal.Keep

end
-- ==== Proof.KValue.lean ====
/-
  The kernel program's result is the three-layer network. Each region's output array is one layer of the region's
  input arrays (Region0 … Region2); each input array, at the region's entry, is a host function of buffers that are
  kept from where they were written — the neighbour sums of the previous layer's output, the inverse-degree column,
  the weight matrices as launched, the bias row —; so, layer by layer, the first region leaves the first layer of the
  node features, the second the second layer of that, and the third — the program's result — the last layer: the
  network of Sage.lean at the reference's own aggregation and inverse degrees.
-/
import proofs.«166229_j14594298872163_2_alg».proof.Proof.Gen.KernelIdeal.Frame
import proofs.«166229_j14594298872163_2_alg».proof.Proof.Sage
import proofs.«166229_j14594298872163_2_alg».proof.Proof.Region0
import proofs.«166229_j14594298872163_2_alg».proof.Proof.Region1
import proofs.«166229_j14594298872163_2_alg».proof.Proof.Region2
import proofs.«166229_j14594298872163_2_alg».proof.Proof.KChain
import proofs.«166229_j14594298872163_2_alg».proof.Proof.KKeep
import proofs.«166229_j14594298872163_2_alg».proof.Proof.RefValue
import Idealize.ShloMosaic.Lib.ValueLayout
import Idealize.ShloMosaic.Lib.Pipeline.Value

set_option maxRecDepth 16384

noncomputable section

namespace Cert.KernelIdeal.KValue

open Idealize.ShloMosaic Idealize.ShloMosaic.TcCoe Idealize.ShloMosaic.ValueIdx
open Idealize.SL.Sem
open Cert.KernelIdeal Cert.KernelIdeal.Gen
open Cert.Sage (SN SW SD SB layer relu)

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector reshaped to a column, read back one value per row, is the vector. -/
theorem col_read (v : SD.Idx → EReal) (h : SD.ShapeCasts S100000x1) :
    (fun i : SD.Idx => shapeCast S100000x1 v h (ix2 (i 0) (0 : Fin 1))) = v :=
  funext fun i => by
    obtain ⟨r, rfl⟩ : ∃ r : Fin 100000, i = ix1 r := ⟨i 0, eq_ix1 i⟩
    exact shapeCast_a_a1_apply v h r 0

/-- A vector reshaped to a row, read back one value per column, is the vector. -/
theorem row_read (v : SB.Idx → EReal) (h : SB.ShapeCasts S1x128) :
    (fun i : SB.Idx => shapeCast S1x128 v h (ix2 (0 : Fin 1) (i 0))) = v :=
  funext fun i => by
    obtain ⟨q, rfl⟩ : ∃ q : Fin 128, i = ix1 q := ⟨i 0, eq_ix1 i⟩
    exact shapeCast_a_1a_apply v h 0 q

/-- A layer of equal arrays is equal. -/
theorem layer_congr {act : EReal → EReal} {a a' x x' : SN.Idx → EReal} {d d' : SD.Idx → EReal} {wl wl' wr wr' : SW.Idx → EReal}
    {b b' : SB.Idx → EReal} (ha : a = a') (hx : x = x') (hd : d = d') (hwl : wl = wl') (hwr : wr = wr') (hb : b = b') :
    layer act a x d wl wr b = layer act a' x' d' wl' wr' b' := by
  subst ha hx hd hwl hwr hb; rfl

variable (m : (ℓ : Loc nD τ sig) → Buf (Elt Ideal) ℓ) (ρ : Dev nD → PrngReg)

/-- The first layer of the node features. -/
abbrev H1 (c : Dev nD) : SN.Idx → EReal :=
  layer relu (Cert.ReferenceIdeal.RefValue.agg (m ((c : Thread nD τ).loc main_arg2)) (m ((c : Thread nD τ).loc main_arg1))) (m ((c : Thread nD τ).loc main_arg1))
    (Cert.ReferenceIdeal.RefValue.dinv (m ((c : Thread nD τ).loc main_arg2))) (m ((c : Thread nD τ).loc main_arg3)) (m ((c : Thread nD τ).loc main_arg4)) (m ((c : Thread nD τ).loc main_arg5))

/-- The second layer, of the first's output. -/
abbrev H2 (c : Dev nD) : SN.Idx → EReal :=
  layer relu (Cert.ReferenceIdeal.RefValue.agg (m ((c : Thread nD τ).loc main_arg2)) (H1 m c)) (H1 m c)
    (Cert.ReferenceIdeal.RefValue.dinv (m ((c : Thread nD τ).loc main_arg2))) (m ((c : Thread nD τ).loc main_arg6)) (m ((c : Thread nD τ).loc main_arg7)) (m ((c : Thread nD τ).loc main_arg8))

/-- The third, of the second's. -/
abbrev H3 (c : Dev nD) : SN.Idx → EReal :=
  layer id (Cert.ReferenceIdeal.RefValue.agg (m ((c : Thread nD τ).loc main_arg2)) (H2 m c)) (H2 m c)
    (Cert.ReferenceIdeal.RefValue.dinv (m ((c : Thread nD τ).loc main_arg2))) (m ((c : Thread nD τ).loc main_arg9)) (m ((c : Thread nD τ).loc main_arg10)) (m ((c : Thread nD τ).loc main_arg11))

/-- The inverse-degree column, read one value per node, at the first region's entry. -/
theorem dcol3 (c : Dev nD) :
    (fun i : SD.Idx => W3 m ρ c (Proc.devRef .tc main_v15) (ix2 (i 0) (0 : Fin 1)))
      = Cert.ReferenceIdeal.RefValue.dinv (m ((c : Thread nD τ).loc main_arg2)) :=
  (congrArg (fun col : S100000x1.Idx → EReal => fun i : SD.Idx => col (ix2 (i 0) (0 : Fin 1))) (Chain.V3_v15 m ρ c)).trans
    (col_read _ _)

/-- The first region leaves the first layer in its output array. -/
theorem out1 (c : Dev nD) : W4 m ρ c (Proc.devRef .tc main_v27) = H1 m c := by
  refine (W4_arr m ρ c 6).trans ((Region0.final (V3 m ρ) c).trans ?_)
  refine layer_congr ?_ ?_ ?_ ?_ ?_ ?_
  · exact (Chain.agg_result0 (W2 m ρ c)).trans
      ((congr (congr (congrArg Chain.aggOf (Chain.W3_v1 m ρ c)) (Chain.W3_v3 m ρ c)) (Keep.W3_main_arg1 m ρ c)).trans
        (Chain.aggOf_ref _ _))
  · exact Keep.W3_main_arg1 m ρ c
  · exact dcol3 m ρ c
  · exact Keep.W3_main_arg3 m ρ c
  · exact Keep.W3_main_arg4 m ρ c
  · exact (congrArg (fun row : S1x128.Idx → EReal => fun i : SB.Idx => row (ix2 (0 : Fin 1) (i 0)))
        ((Chain.bias_result0 (W2 m ρ c)).trans
          (congrArg (fun v => shapeCast S1x128 v shapeCasts_S128_S1x128) (Keep.W3_main_arg5 m ρ c)))).trans
      (row_read _ _)

/-- The second region leaves the second layer. -/
theorem out2 (c : Dev nD) : W6 m ρ c (Proc.devRef .tc main_v40) = H2 m c := by
  refine (W6_arr m ρ c 6).trans ((Region1.final (V5 m ρ) c).trans ?_)
  refine layer_congr ?_ ?_ ?_ ?_ ?_ ?_
  · exact (Chain.agg_result1 (W4 m ρ c)).trans
      ((congr (congr (congrArg Chain.aggOf ((Keep.W5_main_v1 m ρ c).trans (Chain.W3_v1 m ρ c)))
          ((Keep.W5_main_v3 m ρ c).trans (Chain.W3_v3 m ρ c))) ((Keep.W5_main_v27 m ρ c).trans (out1 m ρ c))).trans
        (Chain.aggOf_ref _ _))
  · exact (Keep.W5_main_v27 m ρ c).trans (out1 m ρ c)
  · exact (congrArg (fun col : S100000x1.Idx → EReal => fun i : SD.Idx => col (ix2 (i 0) (0 : Fin 1))) (Keep.W5_main_v15 m ρ c)).trans
      (dcol3 m ρ c)
  · exact Keep.W5_main_arg6 m ρ c
  · exact Keep.W5_main_arg7 m ρ c
  · exact (congrArg (fun row : S1x128.Idx → EReal => fun i : SB.Idx => row (ix2 (0 : Fin 1) (i 0)))
        ((Chain.bias_result1 (W4 m ρ c)).trans
          (congrArg (fun v => shapeCast S1x128 v shapeCasts_S128_S1x128) (Keep.W5_main_arg8 m ρ c)))).trans
      (row_read _ _)

/-- The third region leaves the third layer. -/
theorem out3 (c : Dev nD) : W8 m ρ c (Proc.devRef .tc main_v53) = H3 m c := by
  refine (W8_arr m ρ c 6).trans ((Region2.final (V7 m ρ) c).trans ?_)
  refine layer_congr ?_ ?_ ?_ ?_ ?_ ?_
  · exact (Chain.agg_result2 (W6 m ρ c)).trans
      ((congr (congr (congrArg Chain.aggOf ((Keep.W7_main_v1 m ρ c).trans (Chain.W3_v1 m ρ c)))
          ((Keep.W7_main_v3 m ρ c).trans (Chain.W3_v3 m ρ c))) ((Keep.W7_main_v40 m ρ c).trans (out2 m ρ c))).trans
        (Chain.aggOf_ref _ _))
  · exact (Keep.W7_main_v40 m ρ c).trans (out2 m ρ c)
  · exact (congrArg (fun col : S100000x1.Idx → EReal => fun i : SD.Idx => col (ix2 (i 0) (0 : Fin 1))) (Keep.W7_main_v15 m ρ c)).trans
      (dcol3 m ρ c)
  · exact Keep.W7_main_arg9 m ρ c
  · exact Keep.W7_main_arg10 m ρ c
  · exact (congrArg (fun row : S1x128.Idx → EReal => fun i : SB.Idx => row (ix2 (0 : Fin 1) (i 0)))
        ((Chain.bias_result2 (W6 m ρ c)).trans
          (congrArg (fun v => shapeCast S1x128 v shapeCasts_S128_S1x128) (Keep.W7_main_arg11 m ρ c)))).trans
      (row_read _ _)

/-- The kernel program's result array: the network of the argument arrays. -/
theorem kernel_value (c : Dev nD) :
    W8 m ρ c (Proc.devRef .tc main_v53)
      = Cert.Sage.net (Cert.ReferenceIdeal.RefValue.agg (m ((c : Thread nD τ).loc main_arg2))) (Cert.ReferenceIdeal.RefValue.dinv (m ((c : Thread nD τ).loc main_arg2)))
          (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) :=
  (out3 m ρ c).trans (by unfold Cert.Sage.net; rfl)

end Cert.KernelIdeal.KValue

end
-- ==== Proof.Claims.lean ====
/-
  The five claims, assembled.

  Two of them are about values: the program read on the extended reals and the reference, started from arguments
  that agree, both end with the same array in their result. Each side is shown to end with the three-layer
  mean-aggregating network of its arguments — the program by its three regions, each computing one layer of the
  node blocks, the reference by composing its host operations — so the two results are one function of equal
  arguments. The other three say that each program runs to its end and leaves its arguments as launched, and that
  reading the program on the extended reals changed none of its operations.
-/
import proofs.«166229_j14594298872163_2_alg».proof.Defs
import proofs.«166229_j14594298872163_2_alg».proof.Proof.Gen.Kernel.Frame
import proofs.«166229_j14594298872163_2_alg».proof.Proof.Gen.KernelIdeal.Frame
import proofs.«166229_j14594298872163_2_alg».proof.Proof.Gen.ReferenceIdeal
import proofs.«166229_j14594298872163_2_alg».proof.Proof.Gen.Pre_finite_inputs
import proofs.«166229_j14594298872163_2_alg».proof.Proof.KRun
import proofs.«166229_j14594298872163_2_alg».proof.Proof.KValue
import proofs.«166229_j14594298872163_2_alg».proof.Proof.RefRead
import proofs.«166229_j14594298872163_2_alg».proof.Proof.RefValue
import proofs.«166229_j14594298872163_2_alg».proof.Proof.Sage

noncomputable section

open Idealize.ShloMosaic Idealize.ShloMosaic.TcCoe Idealize.SL.Sem

/-! ## The claims -/

namespace Cert.Proof.Claims

/-- The program as printed runs and leaves its arguments as launched. -/
theorem frame_p : Cert.frame_Kernel := fun m ρ _ => Cert.Kernel.Gen.frame m ρ

/-- So does the program read on the extended reals. -/
theorem frame_pi : Cert.frame_KernelIdeal := fun m ρ _ => Cert.KernelIdeal.Gen.frame m ρ

/-- The reference runs and leaves its arguments as launched: its run, with the result's value dropped. -/
theorem frame_ri : Cert.frame_ReferenceIdeal := fun m ρ _ =>
  (θ_run Cert.ReferenceIdeal.defs _ _).mono (fun _ h c => (h c).2) (Cert.ReferenceIdeal.RunP.run (F := Ideal) m ρ)

/-- Reading the program on the extended reals rewrote none of its operations: nothing to preserve. -/
theorem preserves : Cert.preserves_Kernel_KernelIdeal := trivial

/-- On the extended reals both programs end with the three-layer network of their arguments in the result array:
    the program's three regions compute it layer by layer, the reference's host operations compose to it, with
    the same aggregation and the same inverse degrees of the same edge list. From arguments that agree the two
    results are therefore equal. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.KValue.kernel_value m ρ c), (h c).2⟩)
    (Cert.KernelIdeal.ValueRun.run (F := Ideal) m ρ), ?_⟩
  refine (θ_run Cert.ReferenceIdeal.defs _ _).mono (fun _ h c => ⟨(h c).1.trans ?_, (h c).2⟩)
    (Cert.ReferenceIdeal.RunP.run (F := Ideal) m' ρ')
  obtain ⟨-, h1, h2, h3, h4, h5, h6, h7, h8, h9, h10, h11⟩ := hagree c
  rw [Cert.ReferenceIdeal.ReadP.val_main_v73_eq, Cert.ReferenceIdeal.RefValue.ref_value, h1, h2, h3, h4, h5, h6, h7, h8, h9, h10, h11]

end Cert.Proof.Claims

end
-- ==== Proof.lean ====
/-
  A three-layer mean-aggregating graph network over 100000 nodes with 128 features and 1600000 edges, as a kernel
  program against a plain reference: both, read on the extended reals, compute the same array.

  One layer sends the neighbour sums `agg` of a feature array `x` (the rows of `x` at the edges' sources, added up at
  the edges' targets), scaled per node by the inverse degree `d`, through one weight matrix, `x` itself through
  another, adds a bias row and (in the first two layers) rectifies:

      out[r, q] = act ( Σ_k (agg[r,k] · d[r]) · Wl[k,q] + Σ_k x[r,k] · Wr[k,q] + b[q] ).

  The kernel program computes `agg` and `d` by host operations and each layer by a kernel over 20 blocks of 5000 node
  rows, storing the first two layers' outputs in a narrower float format; the reference computes everything by host
  operations on whole arrays. On the extended reals a change of float format is the identity, a block of a matrix
  product is the product of the blocks' rows, and both programs apply the same gather and the same scatter-add to the
  same index arrays; so no law of arithmetic beyond the definitions is needed, and no finiteness of the inputs.

  The modules: Sage (the layer and the network as functions of arrays), Pay (the kernel body's arithmetic at an
  index), Region0 … Region2 (a region's output array is a layer of its input arrays), KChain and KKeep (the host
  operations between the regions, and the buffers they keep), KValue (the kernel program's result is the network),
  KRun (the kernel program's run with its result named), RefRun and RefRead (the reference's run, one operation at a
  time), RefValue (the reference's result is the network), Claims (the five claims).
-/
import proofs.«166229_j14594298872163_2_alg».proof.Defs
import proofs.«166229_j14594298872163_2_alg».proof.Proof.Gen.Kernel
import proofs.«166229_j14594298872163_2_alg».proof.Proof.Gen.KernelIdeal
import proofs.«166229_j14594298872163_2_alg».proof.Proof.Gen.ReferenceIdeal
import proofs.«166229_j14594298872163_2_alg».proof.Proof.Gen.Pre_finite_inputs
import proofs.«166229_j14594298872163_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves,
    Cert.Proof.Claims.algebraic⟩

end Cert.Proof

end
